-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S10000x128 : Shape := ⟨2, ![10000, 128]⟩
abbrev S10000x1 : Shape := ⟨2, ![10000, 1]⟩
abbrev S1600000x128 : Shape := ⟨2, ![1600000, 128]⟩

abbrev nBuf : Space → Nat
  | .hbm => 42
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .i1⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S1x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .i1⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call1_cst : Ref sig .tc := ⟨.hbm, 64, rfl⟩
abbrev main_call1_v0 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's whole run, with EVERY buffer read at the end.

  The program is two grid computations with stretches of host operations before and between them. Its buffers at each
  boundary form a chain of valuations: the launch memory, then each host stretch applied, then each grid computation's
  arrays replaced by what its write-backs leave. The last valuation of that chain is what every terminating execution
  ends in, at every buffer that outlives the kernels' scratch: so any statement about the final memory that follows
  from "each such buffer holds the last valuation's contents" holds after every weakly fair execution.
-/
import proofs.«164258_j69758858822454_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, faultless, in a memory that holds the last boundary's contents at every
    buffer that is not a kernel's scratch; hence in any `Q` that follows from that. -/
theorem run_of_final {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The run with the result named: the result buffer ends at the last boundary's contents, the five arguments as
    launched. -/
theorem run_out : θ_run defs (onTc (τ := τ) (main (F := F))) ⟨m, fun _ => 0, ρ⟩ (fun r => ∀ c : Dev nD,
      r.2.mem ((c.tc : Thread nD τ).loc main_v25) = W6 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_of_final m ρ fun s h c =>
    ⟨h c _ (mem_uc main_v25 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩

end Cert.KernelIdeal.Out

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.Region0.lean ====
/-
  What the first grid computation leaves in its output array, for ANY contents `V` of the buffers at its entry.

  Point t of its 10-point grid loads rows 10000·t … 10000·t + 9999 of X (window 0), all of W (window 1) and the same
  rows of the coefficient column (window 2), and stores (X_block · W) scaled row by row by the coefficient into the same
  rows of the output (window 3). The ten row blocks tile the output, so entry (n, q) of the output array after the run
  is (Σ_k X(n, k) · W(k, q)) · coefficient(n, 0).
-/
import proofs.«164258_j69758858822454_1_alg».proof.Proof.Gen.KernelIdeal.Frame
import Idealize.ShloMosaic.Lib.Pipeline.Value
import Idealize.ShloMosaic.Lib.ValueIdx
import Idealize.ShloMosaic.PureOps.Ideal.Laws
import proofs.«164258_j69758858822454_1_alg».proof.Proof.LibMatmulRows

set_option maxRecDepth 16384

noncomputable section

namespace Cert.KernelIdeal.Region0

open Cert.KernelIdeal Cert.KernelIdeal.Gen
open Idealize.ShloMosaic Idealize.ShloMosaic.TcCoe Idealize.ShloMosaic.ValueIdx Idealize.ShloMosaic.Pipeline Idealize.SL.Sem

theorem hz : (![0, 0] : Fin 2 → Nat) = fun _ => 0 := funext fun a => by fin_cases a <;> rfl

/-- The body's stored value at (p, q): the product's entry scaled by the coefficient of row p. -/
theorem pay_apply (x0 : FVec Ideal S10000x128 .f32) (x1 : FVec Ideal S128x128 .f32) (x2 : FVec Ideal S10000x1 .f32)
    (p : Fin 10000) (q : Fin 128) :
    k0_pay1 (F := Ideal) x0 x1 x2 (ix2 p q) = (∑ k : Fin 128, x0 (ix2 p k) * x1 (ix2 k q)) * x2 (ix2 p (0 : Fin 1)) := by
  unfold k0_pay1
  show mulf (matmul dot_S10000x128_S128x128_S10000x128_1_0_0_1_n_n none (truncf .bf16 x0 _) (truncf .bf16 x1 _)
      (constant S10000x128 .f32 0x00000000#32)) (broadcastTo S10000x128 (shapeCast S10000x1 x2 _) _) (ix2 p q) = _
  rw [mulf_apply, shapeCast_self]
  refine congrArg₂ (· * ·) ?_ ?_
  · exact MatmulRows.matmul_zero_apply (M := 10000) (K := 128) (N := 128)
      dot_S10000x128_S128x128_S10000x128_1_0_0_1_n_n none rfl rfl rfl rfl
      (fun i r => by
        unfold DotDims.lhsIdx
        rw [dif_neg (show ¬(0 : Fin S10000x128.rank) ∈ dot_S10000x128_S128x128_S10000x128_1_0_0_1_n_n.lhsBatch by decide),
          dif_pos (show (0 : Fin S10000x128.rank) ∈ dot_S10000x128_S128x128_S10000x128_1_0_0_1_n_n.lhsNonContracting by decide)]
        rfl)
      (fun i r => by
        unfold DotDims.rhsIdx
        rw [dif_neg (show ¬(1 : Fin S128x128.rank) ∈ dot_S10000x128_S128x128_S10000x128_1_0_0_1_n_n.rhsBatch by decide),
          dif_pos (show (1 : Fin S128x128.rank) ∈ dot_S10000x128_S128x128_S10000x128_1_0_0_1_n_n.rhsNonContracting by decide)]
        rfl)
      _ _ (ix2 p q)
  · exact broadcastTo_apply x2 _ (ix2 p q) (ix2 p (0 : Fin 1)) (fun a => match a with
      | ⟨0, _⟩ => by show p.val = if (10000 : Nat) = 1 then 0 else p.val; rw [if_neg (by decide)]
      | ⟨1, _⟩ => by show 0 = if (1 : Nat) = 1 then 0 else q.val; rw [if_pos rfl])

/-- The same at an index of the block. -/
theorem pay_at (x0 : FVec Ideal S10000x128 .f32) (x1 : FVec Ideal S128x128 .f32) (x2 : FVec Ideal S10000x1 .f32)
    (y : S10000x128.Idx) :
    k0_pay1 (F := Ideal) x0 x1 x2 y = (∑ k : Fin 128, x0 (ix2 (y 0) k) * x1 (ix2 k (y 1))) * x2 (ix2 (y 0) (0 : Fin 1)) := by
  obtain ⟨p, q, rfl⟩ : ∃ (p : Fin 10000) (q : Fin 128), y = ix2 p q := ⟨y 0, y 1, eq_ix2 y⟩
  exact pay_apply x0 x1 x2 p q

variable (V : (c : Dev nD) → (b : Ref sig .tc) → Buf (Elt Ideal) ((c : Thread nD τ).loc b))

/-- The three arrays the computation reads, as it finds them: X, W and the coefficient column. -/
abbrev xs (c : Dev nD) : S100000x128.Idx → EReal := V c main_arg0
abbrev ws (c : Dev nD) : S128x128.Idx → EReal := V c main_arg3
abbrev ds (c : Dev nD) : S100000x1.Idx → EReal := V c main_v12

/-- Entry (n, q) of the output: the product's entry scaled by the coefficient column's row n. -/
def rowsAt (c : Dev nD) (n : Fin 100000) (q : Fin 128) : EReal :=
  (∑ k : Fin 128, xs V c (ix2 n k) * ws V c (ix2 k q)) * ds V c (ix2 n (0 : Fin 1))

/-- The output array as one function of the buffers at entry. -/
def rows (c : Dev nD) : S100000x128.Idx → EReal := fun i => rowsAt V c (i 0) (i 1)

/-- The printed index maps over the grid: windows 0, 2 and 3 are at row block t, window 1 and every column block at 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point t writes back is block t of `rows`. -/
theorem flushed_eq (c : Dev nD) (t : Fin cfg0.N) :
    (dat0 V c).flushed 3 t = ((cfg0.win 3).blk t).view.read (Elt Ideal) (rows V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S10000x1) hz]
  obtain ⟨e0, e1, e2, e3, e4, e5, e6, e7⟩ := idx_facts t
  funext j
  show k0_pay1 (F := Ideal) (iblk0 V c 0 t) (iblk0 V c 1 t) (iblk0 V c 2 t) j = rows V c (((cfg0.win 3).blk t).view.emb j)
  refine (pay_at (iblk0 V c 0 t) (iblk0 V c 1 t) (iblk0 V c 2 t) j).trans ?_
  have hj0 : (j 0).val < 10000 := (j 0).isLt
  have hj1 : (j 1).val < 128 := (j 1).isLt
  have h0 : ∀ k : Fin 128, ((cfg0.win 0).blk t).view.emb (ix2 (j 0) k)
      = ix2 ((((cfg0.win 3).blk t).view.emb j) 0) k := fun k => by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have h1 : ∀ k : Fin 128, ((cfg0.win 1).blk t).view.emb (ix2 k (j 1))
      = ix2 k ((((cfg0.win 3).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (ix2 (j 0) (0 : Fin 1))
      = ix2 ((((cfg0.win 3).blk t).view.emb j) 0) (0 : Fin 1) := by
    funext a; apply Fin.ext
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * 0 = 0; omega
  show (∑ k : Fin 128, xs V c (((cfg0.win 0).blk t).view.emb (ix2 (j 0) k)) * ws V c (((cfg0.win 1).blk t).view.emb (ix2 k (j 1))))
      * ds V c (((cfg0.win 2).blk t).view.emb (ix2 (j 0) (0 : Fin 1))) = rowsAt V c _ _
  unfold rowsAt
  rw [h2]
  exact congrArg (· * _) (Finset.sum_congr rfl fun k _ => congrArg₂ (fun a b => xs V c a * ws V c b) (h0 k) (h1 k))

/-- An index of the array is in point t's block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v14).slice (win0_3.rect t)).set ↔ _
  rw [View.set_slice_whole, Rect.mem_set_unit]
  exact Iff.rfl

/-- Every index of the output lies in the block of the point its row falls in. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The output array after the grid computation. -/
theorem final (c : Dev nD) : (dat0 V c).arrAt 3 cfg0.N = rows V c :=
  (dat0 V c).arrAt_eq_of_cover 3 (rows V c) (fun t _ => flushed_eq V c t) (cover)

end Cert.KernelIdeal.Region0

end
-- ==== Proof.Region1.lean ====
/-
  What the second grid computation leaves in its output array, for ANY contents `V` of the buffers at its entry.

  Point t of its 10-point grid loads rows 10000·t … 10000·t + 9999 of the aggregated rows (window 0) and of the
  coefficient column (window 1) and the bias row (window 2), and stores max(agg · coefficient + bias, 0) into the same
  rows of the output (window 3). The ten row blocks tile the output, so entry (n, q) of the output array after the run
  is max(agg(n, q) · coefficient(n, 0) + bias(0, q), 0).
-/
import proofs.«164258_j69758858822454_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.ShloMosaic.Pipeline Idealize.SL.Sem

theorem hz : (![0, 0] : Fin 2 → Nat) = fun _ => 0 := funext fun a => by fin_cases a <;> rfl

/-- The body's stored value at (p, q). -/
theorem pay_apply (x0 : FVec Ideal S10000x128 .f32) (x1 : FVec Ideal S10000x1 .f32) (x2 : FVec Ideal S1x128 .f32)
    (p : Fin 10000) (q : Fin 128) :
    k1_pay1 (F := Ideal) x0 x1 x2 (ix2 p q) = max (x0 (ix2 p q) * x1 (ix2 p (0 : Fin 1)) + x2 (ix2 (0 : Fin 1) q)) 0 := by
  unfold k1_pay1
  show maximumf (addf (mulf (shapeCast S10000x128 x0 _) (broadcastTo S10000x128 (shapeCast S10000x1 x1 _) _))
      (broadcastTo S10000x128 (shapeCast S1x128 x2 _) _)) (broadcast S10000x128 (Scalar.ofBits .f32 0x00000000#32)) (ix2 p q) = _
  rw [maximumf_apply, addf_apply, mulf_apply, shapeCast_self, shapeCast_self, shapeCast_self]
  have hb1 : broadcastTo S10000x128 x1 (by decide) (ix2 p q) = x1 (ix2 p (0 : Fin 1)) :=
    broadcastTo_apply x1 _ (ix2 p q) (ix2 p (0 : Fin 1)) (fun a => match a with
      | ⟨0, _⟩ => by show p.val = if (10000 : Nat) = 1 then 0 else p.val; rw [if_neg (by decide)]
      | ⟨1, _⟩ => by show 0 = if (1 : Nat) = 1 then 0 else q.val; rw [if_pos rfl])
  have hb2 : broadcastTo S10000x128 x2 (by decide) (ix2 p q) = x2 (ix2 (0 : Fin 1) q) :=
    broadcastTo_apply x2 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])
  rw [hb1, hb2]
  show max _ (Ideal.ofBits .f32 0x00000000#32) = _
  rw [Ideal.ofBits_zero_f32]

/-- The same at an index of the block. -/
theorem pay_at (x0 : FVec Ideal S10000x128 .f32) (x1 : FVec Ideal S10000x1 .f32) (x2 : FVec Ideal S1x128 .f32)
    (y : S10000x128.Idx) :
    k1_pay1 (F := Ideal) x0 x1 x2 y = max (x0 (ix2 (y 0) (y 1)) * x1 (ix2 (y 0) (0 : Fin 1)) + x2 (ix2 (0 : Fin 1) (y 1))) 0 := by
  obtain ⟨p, q, rfl⟩ : ∃ (p : Fin 10000) (q : Fin 128), y = ix2 p q := ⟨y 0, y 1, eq_ix2 y⟩
  exact pay_apply x0 x1 x2 p q

variable (V : (c : Dev nD) → (b : Ref sig .tc) → Buf (Elt Ideal) ((c : Thread nD τ).loc b))

/-- The three arrays the computation reads, as it finds them: the aggregated rows, the coefficient column, the bias row. -/
abbrev ag (c : Dev nD) : S100000x128.Idx → EReal := V c main_v24
abbrev ds (c : Dev nD) : S100000x1.Idx → EReal := V c main_v12
abbrev bs (c : Dev nD) : S1x128.Idx → EReal := V c main_v13

/-- Entry (n, q) of the output. -/
def outAt (c : Dev nD) (n : Fin 100000) (q : Fin 128) : EReal :=
  max (ag V c (ix2 n q) * ds V c (ix2 n (0 : Fin 1)) + bs V c (ix2 (0 : Fin 1) q)) 0

/-- The output array as one function of the buffers at entry. -/
def out (c : Dev nD) : S100000x128.Idx → EReal := fun i => outAt V c (i 0) (i 1)

/-- The printed index maps over the grid: windows 0, 1 and 3 are at row block t, window 2 and every column block at 0. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point t writes back is block t of `out`. -/
theorem flushed_eq (c : Dev nD) (t : Fin cfg1.N) :
    (dat1 V c).flushed 3 t = ((cfg1.win 3).blk t).view.read (Elt Ideal) (out V c) := by
  show (cfg1.win 3).cut (grid1.coords t) ((dat1 V c).after 3 t) = _
  rw [after1_3]
  unfold out1_3
  rw [View.canon_unit_zero hz]
  simp only [View.ld_unit_zero (S := S10000x128) hz, View.ld_unit_zero (S := S10000x1) hz, View.ld_unit_zero (S := S1x128) hz]
  obtain ⟨e0, e1, e2, e3, e4, e5, e6, e7⟩ := idx_facts t
  funext j
  show k1_pay1 (F := Ideal) (iblk1 V c 0 t) (iblk1 V c 1 t) (iblk1 V c 2 t) j = out V c (((cfg1.win 3).blk t).view.emb j)
  refine (pay_at (iblk1 V c 0 t) (iblk1 V c 1 t) (iblk1 V c 2 t) j).trans ?_
  have hj0 : (j 0).val < 10000 := (j 0).isLt
  have hj1 : (j 1).val < 128 := (j 1).isLt
  have h0 : ((cfg1.win 0).blk t).view.emb (ix2 (j 0) (j 1))
      = ix2 ((((cfg1.win 3).blk t).view.emb j) 0) ((((cfg1.win 3).blk t).view.emb j) 1) := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (ix2 (j 0) (0 : Fin 1))
      = ix2 ((((cfg1.win 3).blk t).view.emb j) 0) (0 : Fin 1) := by
    funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 1 + 1 * 0 = 0; omega
  have h2 : ((cfg1.win 2).blk t).view.emb (ix2 (0 : Fin 1) (j 1))
      = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  show max (ag V c (((cfg1.win 0).blk t).view.emb (ix2 (j 0) (j 1))) * ds V c (((cfg1.win 1).blk t).view.emb (ix2 (j 0) (0 : Fin 1)))
      + bs V c (((cfg1.win 2).blk t).view.emb (ix2 (0 : Fin 1) (j 1)))) 0 = outAt V c _ _
  unfold outAt
  exact congrArg₂ (fun a b => max (a + b) 0) (congrArg₂ (fun a b => ag V c a * ds V c b) h0 h1) (congrArg (bs V c) h2)

/-- An index of the array is in point t's block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v25).slice (win1_3.rect t)).set ↔ _
  rw [View.set_slice_whole, Rect.mem_set_unit]
  exact Iff.rfl

/-- Every index of the output lies in the block of the point its row falls in. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the grid computation. -/
theorem final (c : Dev nD) : (dat1 V c).arrAt 3 cfg1.N = out V c :=
  (dat1 V c).arrAt_eq_of_cover 3 (out V c) (fun t _ => flushed_eq V c t) (cover)

end Cert.KernelIdeal.Region1

end
-- ==== Proof.LibSegmentSum.lean ====
/-
  Row gather and accumulating row scatter along the leading axis, read at an index, and the one algebraic law a
  degree-normalised neighbourhood sum rests on: a nonnegative real factor passes through a finite sum of extended reals.
  Nothing here mentions a particular program; the sizes are parameters.
-/
import Idealize.ShloMosaic.PureOps.Ideal
import Idealize.ShloMosaic.PureOps.Ideal.Laws
import Idealize.ShloMosaic.Lib.ValueIdx

noncomputable section

open scoped BigOperators

namespace Idealize.ShloMosaic.SegmentSum

open Idealize.ShloMosaic
open Idealize.ShloMosaic.ValueIdx

/-! ## A nonnegative real factor and finite sums of extended reals

The extended reals are not a semiring: `(⊤ + ⊥) * c` and `⊤ * c + ⊥ * c` differ in general. A factor that is a
nonnegative REAL is harmless: it sends each infinity to itself or to zero, and both sides agree. -/

/-- Multiplication on the right by a nonnegative real distributes over every finite sum of extended reals. -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- In a scatter-add into zeros, a factor that equals one nonnegative real `r` on every update landing at `i` can be
    taken out of the sum at `i`: the scattered products at `i` are `r` times the scattered first factors at `i`. -/
theorem hostScatterAdd_zero_mul_fibre {s si su : Shape} (d : ScatterDims s si su) {w : Nat} (idx : IVec si w)
    (U B : su.Idx → EReal) (i : s.Idx) (r : ℝ) (hr : 0 ≤ r)
    (hB : ∀ j, d.resultIdx? j idx = some i → B j = (r : EReal)) :
    Ideal.hostScatterAdd d (fun _ => 0) idx (fun j => U j * B j) i
      = Ideal.hostScatterAdd d (fun _ => 0) idx U i * (r : EReal) := by
  unfold Ideal.hostScatterAdd
  rw [zero_add, zero_add, sum_mul_coe_nonneg _ _ r hr]
  refine Finset.sum_congr rfl fun j hj => ?_
  show U j * B j = U j * (r : EReal)
  rw [hB j (Finset.mem_filter.mp hj).2]

/-! ## The accumulating row scatter along the leading axis

What a segment sum of rows lowers to: update row `e` of an `[E, D]` array is added into operand row `idx[e, 0]` of an
`[N, D]` array, column by column. Axis 0 of the operand is an inserted window axis (the update has no coordinate on
it), axis 1 is the window; the start index is read signed and is not clamped. -/

/-- The dimension numbers of that scatter for an operand `[N, D]`, scatter indices `[E, 1]` and updates `[E, D]`;
    their conditions `wf` are decided on literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands at row `n` was addressed to row `n`: if update element `j` lands at operand index `i`, the
    scatter index of `j`'s row, read as a signed integer, is `i`'s row number. (On axis 0 the landing coordinate is
    the start index plus a window coordinate that is zero, the axis being inserted.) -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N E D wf).resultIdx? j idx = some i) :
    (idx (ix2 (j 0) 0)).toInt = ((i 0).val : ℤ) := by
  unfold ScatterDims.resultIdx? at h
  split at h
  · rename_i hin
    have hv : ((rowScatterDims N E D wf).start j idx 0 + (rowScatterDims N E D wf).window j 0).toNat = (i 0).val :=
      congrArg Fin.val (congrFun (Option.some.inj h) 0)
    have hpos := (hin 0).1
    have hwin : (rowScatterDims N E D wf).window j 0 = 0 := by
      unfold ScatterDims.window
      rw [dif_neg (by simp [ScatterDims.sKept, Shape.kept, List.mem_filter, List.mem_finRange])]
    have hstart : (rowScatterDims N E D wf).start j idx 0 = (idx (ix2 (j 0) 0)).toInt := by
      unfold ScatterDims.start
      rw [dif_pos (show (0 : Fin 2) ∈ (rowScatterDims N E D wf).scatterDimsToOperandDims from List.mem_singleton.mpr rfl)]
      have hsi : (rowScatterDims N E D wf).siIdx j ⟨List.idxOf (0 : Fin 2) (rowScatterDims N E D wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hwin, hstart] at hv hpos
    omega
  · cases h

/-! ## The clamped row a gather reads, and the row a landed update was addressed to -/

/-- The operand row a gather along axis 0 reads for start-index row `e`: the index `idx[e, 0]` read as a signed
    integer, a negative one taken to `0`, clamped to the last row `N − 1`. -/
def clampRow (N : Nat) (hN : 0 < N) {E w : Nat} (idx : IVec ⟨2, ![E, 1]⟩ w) (e : Fin E) : Fin N :=
  ⟨min (idx (ix2 e 0)).toInt.toNat (N - 1), by omega⟩

/-- If update element `j` lands at operand index `i` under the indices `idx`, then any index array `idx'` that reads
    the same signed integer at `j`'s row gathers exactly row `i 0` there: the integer is `i`'s row number, nonnegative
    and below `N`, so neither clamp moves it. -/
theorem clampRow_of_lands {N E D w : Nat} (hN : 0 < N)
    (wf : ScatterDims.WF ⟨2, ![N, D]⟩ ⟨2, ![E, 1]⟩ ⟨2, ![E, D]⟩ [1] [0] [0] 1)
    (idx idx' : IVec ⟨2, ![E, 1]⟩ w) (j : (⟨2, ![E, D]⟩ : Shape).Idx) (i : (⟨2, ![N, D]⟩ : Shape).Idx)
    (h : (rowScatterDims N E D wf).resultIdx? j idx = some i)
    (hsame : (idx' (ix2 (j 0) 0)).toInt = (idx (ix2 (j 0) 0)).toInt) :
    clampRow N hN idx' (j 0) = i 0 := by
  have hl := rowScatter_lands wf idx j i h
  have hi : (i 0).val < N := idx2_lt0 i
  refine Fin.ext ?_
  show min (idx' (ix2 (j 0) 0)).toInt.toNat (N - 1) = (i 0).val
  rw [hsame, hl]
  omega

/-! ## The row gather along the leading axis

What `x[idx]` of an `[N, D]` array at an index column `idx : [E, 1]` lowers to: result row `e` is operand row
`idx[e, 0]`, read signed and clamped into `[0, N − 1]`; axis 0 of the operand is collapsed (slice size 1), axis 1 is
the offset axis, taken whole. -/

section Gather
variable {α : Type}

/-- The dimension numbers of that gather for an operand `[N, D]`, start indices `[E, 1]` and result `[E, D]`; their
    conditions `wf` are decided on literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, c)`: the operand at the clamped row of `e` and column `c`. (On axis 0 the operand
    coordinate is the clamped start index alone; on axis 1 it is the result's own column, the start being zero there.) -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y = x (ix2 (clampRow N hN idx (y 0)) (y 1)) := by
  unfold Host.gather
  congr 1
  funext a
  refine Fin.ext ?_
  match a with
  | ⟨0, _⟩ =>
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N E D wf).start y idx 1 + (rowGatherDims N E D wf).batchCoord y 1
      + (rowGatherDims N E D wf).offCoord y 1 = (y 1).val
    have hst : (rowGatherDims N E D wf).start y idx 1 = 0 := by
      unfold GatherDims.start
      rw [dif_neg (fun h => absurd (List.mem_singleton.mp h) (show ¬ (1 : Fin 2) = 0 by decide))]
    have hoff : (rowGatherDims N E D wf).offCoord y 1 = (y 1).val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hst, GatherDims.batchCoord_eq_zero _ _ _ List.not_mem_nil, hoff]
    omega

/-! ## The gather of a flat array at an index column

What `x[idx]` of an `[N]` array at `idx : [E, 1]` lowers to: result element `e` is `x` at `idx[e, 0]`, read signed and
clamped into `[0, N − 1]`; no offset axis. -/

/-- The dimension numbers of that gather for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the clamped row of `e`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow N hN idx (y 0))) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

end Gather

/-! ## The normalisation coefficient is a nonnegative real

Scattering ones into zeros counts, at each operand element, the updates that land there. The coefficient
`count > 0 ? count^(-1/2) : 0` is therefore a nonnegative real number, never an infinity. -/

/-- A finite sum of ones in the extended reals is the number of its terms. -/
theorem sum_one_eq_card {ι : Type*} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one,
      add_comm]

/-- For a natural number `n` read as an extended real, `n > 0 ? n^(-1/2) : 0` is a nonnegative real: zero when
    `n = 0`, the inverse of the real square root otherwise. -/
theorem select_rsqrt_natCast_real (n : ℕ) :
    ∃ r : ℝ, 0 ≤ r ∧
      Scalar.select (Ideal.cmp .ogt ((n : ℝ) : EReal) 0) (Ideal.rsqrt ((n : ℝ) : EReal)) (0 : EReal) = (r : EReal) := by
  rcases Nat.eq_zero_or_pos n with rfl | hn
  · refine ⟨0, le_refl _, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (n : ℝ) := Nat.cast_pos.mpr hn
    refine ⟨(Real.sqrt (n : ℝ))⁻¹, inv_nonneg.mpr (Real.sqrt_nonneg _), ?_⟩
    have hc : Ideal.cmp .ogt ((n : ℝ) : EReal) 0 = 1#1 := by
      show BitVec.ofBool (decide ((0 : EReal) < ((n : ℝ) : EReal))) = 1#1
      rw [decide_eq_true (EReal.coe_pos.mpr hpos)]
      rfl
    rw [hc, select_one, Ideal.rsqrt_coe, if_neg (not_lt.mpr hpos.le), if_neg hpos.ne']

/-- The degree coefficient at operand element `i`: with `g` the scatter-add of ones into zeros at `i` (the number of
    updates landing there), `g > 0 ? g^(-1/2) : 0` is a nonnegative real. -/
theorem degree_coeff_real {s si su : Shape} (d : ScatterDims s si su) {w : Nat} (idx : IVec si w) (i : s.Idx) :
    ∃ r : ℝ, 0 ≤ r ∧
      Scalar.select (Ideal.cmp .ogt (Ideal.hostScatterAdd d (fun _ => (0 : EReal)) idx (fun _ => (1 : EReal)) i) 0)
        (Ideal.rsqrt (Ideal.hostScatterAdd d (fun _ => (0 : EReal)) idx (fun _ => (1 : EReal)) i)) (0 : EReal)
        = (r : EReal) := by
  have hg : ∃ n : ℕ, Ideal.hostScatterAdd d (fun _ => (0 : EReal)) idx (fun _ => (1 : EReal)) i = ((n : ℝ) : EReal) := by
    unfold Ideal.hostScatterAdd
    exact ⟨_, by rw [zero_add, sum_one_eq_card]⟩
  obtain ⟨n, hn⟩ := hg
  rw [hn]
  exact select_rsqrt_natCast_real n

end Idealize.ShloMosaic.SegmentSum

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.DegreeCoeff.lean ====
/-
  The degree normalisation coefficient is a nonnegative real number.

  With `g` the number of edges leaving a node (a scatter-add of ones into zeros, so a natural number), the coefficient is
  `g > 0 ? 1 / sqrt (max g 1) : 0`. The maximum with one keeps the square root at least one, so the quotient is the real
  `1 / sqrt (max g 1)` in `(0, 1]`; the other branch is zero. Either way the value is a real `r ≥ 0`, which is what lets
  it pass through a sum of extended reals.
-/
import Idealize.ShloMosaic.PureOps.Ideal
import proofs.«164258_j69758858822454_1_alg».proof.Proof.LibSegmentSum

noncomputable section

namespace Cert.DegreeCoeff

open Idealize.ShloMosaic Idealize.ShloMosaic.SegmentSum Idealize.ShloMosaic.ValueIdx

/-- The word `0x3F800000` read as an extended real is one. -/
theorem ofBits_one : Ideal.ofBits .f32 0x3F800000#32 = ((1 : ℝ) : EReal) := by
  simp [Ideal.ofBits, Ideal.ieee, -EReal.coe_mul]
  norm_num

/-- A scatter-add of ones into zeros counts: at every element it is a natural number. -/
theorem scatter_ones_nat {s si su : Shape} (d : ScatterDims s si su) {w : Nat} (idx : IVec si w) (i : s.Idx) :
    ∃ n : ℕ, Ideal.hostScatterAdd d (fun _ => (0 : EReal)) idx (fun _ => (1 : EReal)) i = ((n : ℝ) : EReal) := by
  unfold Ideal.hostScatterAdd
  exact ⟨_, by rw [zero_add, sum_one_eq_card]⟩

/-- For a natural number `n`, `1 / sqrt (max n 1)` on the extended reals is the nonnegative real `(sqrt (max n 1))⁻¹`. -/
theorem inv_sqrt_max_one_real (n : ℕ) :
    ∃ r : ℝ, 0 ≤ r ∧ Ideal.div ((1 : ℝ) : EReal) (Ideal.sqrt (max ((n : ℝ) : EReal) ((1 : ℝ) : EReal))) = (r : EReal) := by
  have hmax : max ((n : ℝ) : EReal) ((1 : ℝ) : EReal) = ((max (n : ℝ) 1 : ℝ) : EReal) := (EReal.coe_strictMono.monotone.map_max).symm
  have hpos : (0 : ℝ) < max (n : ℝ) 1 := lt_of_lt_of_le one_pos (le_max_right _ _)
  have hs : Real.sqrt (max (n : ℝ) 1) ≠ 0 := (Real.sqrt_pos.mpr hpos).ne'
  refine ⟨1 / Real.sqrt (max (n : ℝ) 1), by positivity, ?_⟩
  rw [hmax, Ideal.sqrt_coe, if_neg (not_lt.mpr hpos.le), Ideal.div_coe hs, ← EReal.coe_mul, one_mul]

/-- The coefficient, whichever way the comparison went: the quotient branch is a nonnegative real, the other is zero. -/
theorem coeff_real (n : ℕ) (b : BitVec 1) :
    ∃ r : ℝ, 0 ≤ r ∧
      Scalar.select b (Ideal.div ((1 : ℝ) : EReal) (Ideal.sqrt (max ((n : ℝ) : EReal) ((1 : ℝ) : EReal)))) (0 : EReal)
        = (r : EReal) := by
  obtain ⟨r, hr, he⟩ := inv_sqrt_max_one_real n
  rcases (by decide +revert : b = 0#1 ∨ b = 1#1) with rfl | rfl
  · exact ⟨0, le_refl _, by rw [select_zero]; rfl⟩
  · exact ⟨r, hr, by rw [select_one, he]⟩

end Cert.DegreeCoeff

end
-- ==== Proof.Spec.lean ====
/-
  One layer of graph convolution, relu(D^(-1/2) A D^(-1/2) X W + b), over an edge list (src, dst), two ways.

  Stages both programs share, written once over the library's operations: the column of an index vector, the index
  wrapped as array indexing wraps it (a negative index plus the extent), the out-degree `deg` (ones scattered by src into
  zeros), the coefficient `dinv = deg > 0 ? 1 / sqrt (max deg 1) : 0`, the gather of rows at dst and the segment sum by
  src (a row scatter-add into zeros).

  * `refOut`: scale each gathered row of X W by dinv[src e] · dinv[dst e], sum the rows by source, add b, clamp at zero.
  * `kerOut`: scale row j of X W by dinv[j] FIRST, gather and sum the scaled rows by source, scale row i of the sum by
    dinv[i], add b, clamp at zero.

  They agree because an edge whose row is summed into row i has source i (so its factor dinv[src e] is the one number
  dinv[i]), and dinv[i] is a nonnegative REAL, which passes through a finite sum of extended reals. No finiteness of X,
  W or b is used: only commutativity and associativity of the product, and that one law.
-/
import Idealize.ShloMosaic.PureOps.Ideal
import Idealize.ShloMosaic.PureOps.Ideal.Laws
import Idealize.ShloMosaic.Lib.ValueIdx
import Idealize.ShloMosaic.Lib.Pipeline.Value
import proofs.«164258_j69758858822454_1_alg».proof.Proof.LibSegmentSum
import proofs.«164258_j69758858822454_1_alg».proof.Proof.LibMatmulRows
import proofs.«164258_j69758858822454_1_alg».proof.Proof.LibHostBroadcast
import proofs.«164258_j69758858822454_1_alg».proof.Proof.DegreeCoeff

set_option Elab.async false

noncomputable section

namespace Cert.Spec

open Idealize.ShloMosaic Idealize.ShloMosaic.ValueIdx Idealize.ShloMosaic.SegmentSum

/-! ## Shapes, and the side conditions of the operations on them -/

abbrev S0 : Shape := ⟨0, ![]⟩
abbrev SN : Shape := ⟨1, ![100000]⟩
abbrev SE : Shape := ⟨1, ![1600000]⟩
abbrev SE1 : Shape := ⟨2, ![1600000, 1]⟩
abbrev SED : Shape := ⟨2, ![1600000, 128]⟩
abbrev SND : Shape := ⟨2, ![100000, 128]⟩
abbrev SDD : Shape := ⟨2, ![128, 128]⟩
abbrev SD : Shape := ⟨1, ![128]⟩
abbrev S1D : Shape := ⟨2, ![1, 128]⟩

theorem b0E : S0.BroadcastsInDim SE (![] : Fin 0 → Fin SE.rank) := by decide
theorem b0N : S0.BroadcastsInDim SN (![] : Fin 0 → Fin SN.rank) := by decide
theorem b0ND : S0.BroadcastsInDim SND (![] : Fin 0 → Fin SND.rank) := by decide
theorem bEE1 : SE.BroadcastsInDim SE1 (![0] : Fin 1 → Fin SE1.rank) := by decide
theorem bE1ED : SE1.BroadcastsInDim SED (![0, 1] : Fin 2 → Fin SED.rank) := by decide
theorem bD1D : SD.BroadcastsInDim S1D (![1] : Fin 1 → Fin S1D.rank) := by decide
theorem b1DND : S1D.BroadcastsInDim SND (![0, 1] : Fin 2 → Fin SND.rank) := by decide
theorem wfDeg : ScatterDims.WF SN SE1 SE [] [0] [0] 1 := by decide
theorem wfS : ScatterDims.WF SND SE1 SED [1] [0] [0] 1 := by decide
theorem wfG : GatherDims.WF SND SE1 SED [1] [0] [] [0] [] 1 ![1, 128] := by decide
theorem wfV : GatherDims.WF SN SE1 SE [] [0] [] [0] [] 1 ![1] := by decide
theorem wfDot : DotDims.WF SND SDD SND [1] [0] [0] [1] [] [] := by decide

theorem hN : 0 < 100000 := by decide

/-- The scatter that counts edges per source: operand [N], indices [E, 1], updates [E]. -/
def dDeg : ScatterDims SN SE1 SE where
  updateWindowDims := []
  insertedWindowDims := [0]
  scatterDimsToOperandDims := [0]
  indexVectorDim := 1
  wf := wfDeg
/-- The row scatter, the row gather and the flat gather at these extents. -/
abbrev dS : ScatterDims SND SE1 SED := rowScatterDims 100000 1600000 128 wfS
abbrev dG : GatherDims SND SE1 SED := rowGatherDims 100000 1600000 128 wfG
abbrev dV : GatherDims SN SE1 SE := vecGatherDims 100000 1600000 wfV
/-- X W: contract axis 1 of X with axis 0 of W. -/
def dDot : DotDims SND SDD SND where
  lhsContracting := [1]
  rhsContracting := [0]
  lhsNonContracting := [0]
  rhsNonContracting := [1]
  lhsBatch := []
  rhsBatch := []
  wf := wfDot

/-! ## The shared stages -/

section Stages
variable {F : FTy → Type} [FloatOps F]

/-- An index vector as a column. -/
def col (x : IVec SE 32) : IVec SE1 32 := broadcastInDim SE1 ![0] bEE1 x
/-- Array indexing's wrap: a negative index plus the extent. -/
def wrap (x : IVec SE 32) : IVec SE 32 :=
  select (cmpi .slt x (broadcastInDim SE ![] b0E (constantI S0 32 0#32)))
    (addi x (broadcastInDim SE ![] b0E (constantI S0 32 100000#32))) x
/-- The out-degree: ones scattered by source into zeros. -/
def deg (src : IVec SE 32) : FVec F SN .f32 :=
  Host.scatterAdd dDeg (broadcastInDim SN ![] b0N (constant (F := F) S0 .f32 0x00000000#32)) (col src)
    (broadcastInDim SE ![] b0E (constant (F := F) S0 .f32 0x3F800000#32))
/-- The coefficient `deg > 0 ? 1 / sqrt (max deg 1) : 0`. -/
def dinv (src : IVec SE 32) : FVec F SN .f32 :=
  select (cmpf .ogt (deg (F := F) src) (broadcastInDim SN ![] b0N (constant (F := F) S0 .f32 0x00000000#32)))
    (Host.divf (broadcastInDim SN ![] b0N (constant (F := F) S0 .f32 0x3F800000#32))
      (Host.sqrt (maximumf (deg (F := F) src) (broadcastInDim SN ![] b0N (constant (F := F) S0 .f32 0x3F800000#32)))))
    (broadcastInDim SN ![] b0N (constant (F := F) S0 .f32 0x00000000#32))
/-- Row e of the result is row dst[e] (wrapped, then clamped) of `y`. -/
def gatherRows (y : FVec F SND .f32) (dst : IVec SE 32) : FVec F SED .f32 := Host.gather dG y (col (wrap dst))
/-- Row i of the result is the sum of the rows e of `u` with src[e] = i. -/
def segSum (src : IVec SE 32) (u : FVec F SED .f32) : FVec F SND .f32 :=
  Host.scatterAdd dS (broadcastInDim SND ![] b0ND (constant (F := F) S0 .f32 0x00000000#32)) (col src) u

/-- The reference: the edge coefficient on the gathered rows of X W, summed by source, plus b, clamped at zero. -/
def refOut (x0 : FVec F SND .f32) (x1 x2 : IVec SE 32) (x3 : FVec F SDD .f32) (x4 : FVec F SD .f32) : FVec F SND .f32 :=
  maximumf
    (addf
      (segSum x1 (mulf (gatherRows (Host.dotGeneral dDot none x0 x3) x2)
        (broadcastInDim SED ![0, 1] bE1ED (broadcastInDim SE1 ![0] bEE1
          (mulf (Host.gather dV (dinv (F := F) x1) (col (wrap x1))) (Host.gather dV (dinv (F := F) x1) (col (wrap x2))))))))
      (broadcastInDim SND ![0, 1] b1DND (broadcastInDim S1D ![1] bD1D x4)))
    (broadcastInDim SND ![] b0ND (constant (F := F) S0 .f32 0x00000000#32))

end Stages

/-! ## The kernel's result, entry by entry -/

/-- Row j of X W scaled by dinv[j]: what the first grid computation leaves. -/
def scaledRows (x0 : FVec Ideal SND .f32) (x1 : IVec SE 32) (x3 : FVec Ideal SDD .f32) : FVec Ideal SND .f32 :=
  fun j => (∑ k : Fin 128, x0 (ix2 (j 0) k) * x3 (ix2 k (j 1))) * dinv (F := Ideal) x1 (ix1 (j 0))

/-- The kernel: the scaled rows gathered and summed by source, row i scaled by dinv[i], plus b, clamped at zero. -/
def kerOut (x0 : FVec Ideal SND .f32) (x1 x2 : IVec SE 32) (x3 : FVec Ideal SDD .f32) (x4 : FVec Ideal SD .f32) :
    FVec Ideal SND .f32 :=
  fun i => max (segSum (F := Ideal) x1 (gatherRows (scaledRows x0 x1 x3) x2) i * dinv (F := Ideal) x1 (ix1 (i 0)) + x4 (ix1 (i 1))) 0

end Cert.Spec

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.KernelValue.lean ====
/-
  The idealized kernel's result as a function of its five arguments.

  Reading backwards from the end of the run: the result buffer is the second grid computation's output array, which is
  max(agg · coefficient + bias, 0) entry by entry of the buffers at its entry; there, agg is the host's segment sum by
  source of the rows gathered at the destinations from the first grid computation's output, which is X W scaled row by
  row by the coefficient column; the coefficient column and the bias row are the host's reshapes of the degree
  coefficient and of b, and X, W, the edge lists and b are the arguments as launched. Composed, that is the
  specification's `kerOut`.
-/
import proofs.«164258_j69758858822454_1_alg».proof.Proof.KernelRun
import proofs.«164258_j69758858822454_1_alg».proof.Proof.Region0
import proofs.«164258_j69758858822454_1_alg».proof.Proof.Region1
import proofs.«164258_j69758858822454_1_alg».proof.Proof.Spec
import proofs.«164258_j69758858822454_1_alg».proof.Proof.LibVectorAsMatrix
import Idealize.ShloMosaic.Lib.StableHlo.Run

set_option maxRecDepth 16384

noncomputable section

namespace Cert.KernelIdeal.Out

open Cert.KernelIdeal Cert.KernelIdeal.Gen
open Idealize.ShloMosaic Idealize.ShloMosaic.TcCoe Idealize.SL.Sem Idealize.ShloMosaic.StableHlo Idealize.ShloMosaic.ValueIdx

/-! ## The host stretches, over any valuation they start from -/

section Stretches
variable {F : FTy → Type} [FloatOps F] (W : Valuation τ sig (Elt F))

set_option maxHeartbeats 4000000 in
/-- The stretch up to the select computes the degree coefficient of the source list. -/
theorem pre_dinv : (StableHlo.after hostOps0_1 (StableHlo.after hostOps0 W) (Proc.devRef .tc main_v11) : S100000.Idx → Elt F .f32)
    = Cert.Spec.dinv (F := F) (W (Proc.devRef .tc main_arg1)) := by
  after_results_simp
  rfl

set_option maxHeartbeats 4000000 in
/-- … and leaves the bias argument alone. -/
theorem pre_keeps_arg4 : StableHlo.after hostOps0_1 (StableHlo.after hostOps0 W) (Proc.devRef .tc main_arg4) = W (Proc.devRef .tc main_arg4) := by
  after_results_simp

/-- The two reshapes: the coefficient as a column, the bias as a row. -/
theorem pre_col : (StableHlo.after hostOps0_2 W (Proc.devRef .tc main_v12) : S100000x1.Idx → Elt F .f32)
    = shapeCast S100000x1 (W (Proc.devRef .tc main_v11) : S100000.Idx → Elt F .f32) (by decide) := by
  after_results
  rfl
theorem pre_row : (StableHlo.after hostOps0_2 W (Proc.devRef .tc main_v13) : S1x128.Idx → Elt F .f32)
    = shapeCast S1x128 (W (Proc.devRef .tc main_arg4) : S128.Idx → Elt F .f32) (by decide) := by
  after_results
  rfl

set_option maxHeartbeats 4000000 in
/-- The whole stretch before the first grid computation leaves X, W and the edge lists alone. -/
theorem pre_keeps_arg0 : StableHlo.after hostOps0_2 (StableHlo.after hostOps0_1 (StableHlo.after hostOps0 W)) (Proc.devRef .tc main_arg0) = W (Proc.devRef .tc main_arg0) := by
  after_results_simp
set_option maxHeartbeats 4000000 in
theorem pre_keeps_arg1 : StableHlo.after hostOps0_2 (StableHlo.after hostOps0_1 (StableHlo.after hostOps0 W)) (Proc.devRef .tc main_arg1) = W (Proc.devRef .tc main_arg1) := by
  after_results_simp
set_option maxHeartbeats 4000000 in
theorem pre_keeps_arg2 : StableHlo.after hostOps0_2 (StableHlo.after hostOps0_1 (StableHlo.after hostOps0 W)) (Proc.devRef .tc main_arg2) = W (Proc.devRef .tc main_arg2) := by
  after_results_simp
set_option maxHeartbeats 4000000 in
theorem pre_keeps_arg3 : StableHlo.after hostOps0_2 (StableHlo.after hostOps0_1 (StableHlo.after hostOps0 W)) (Proc.devRef .tc main_arg3) = W (Proc.devRef .tc main_arg3) := by
  after_results_simp

/-- The stretch between the grid computations: rows gathered at the destinations, summed by source. -/
theorem mid_agg : (StableHlo.after hostOps1 W (Proc.devRef .tc main_v24) : S100000x128.Idx → Elt F .f32)
    = Cert.Spec.segSum (F := F) (W (Proc.devRef .tc main_arg1))
        (Cert.Spec.gatherRows (F := F) (W (Proc.devRef .tc main_v14)) (W (Proc.devRef .tc main_arg2))) := by
  after_results
  rfl
/-- … leaving the coefficient column and the bias row alone. -/
theorem mid_keeps_col : StableHlo.after hostOps1 W (Proc.devRef .tc main_v12) = W (Proc.devRef .tc main_v12) := by
  after_results
theorem mid_keeps_row : StableHlo.after hostOps1 W (Proc.devRef .tc main_v13) = W (Proc.devRef .tc main_v13) := by
  after_results

end Stretches

/-! ## The run's boundaries at the ideal instance -/

variable (m : (ℓ : Loc nD τ sig) → Buf (Elt Ideal) ℓ) (ρ : Dev nD → PrngReg)

/-- The five arguments as launched. -/
abbrev a0 (c : Dev nD) : Cert.Spec.SND.Idx → EReal := m ((c.tc : Thread nD τ).loc main_arg0)
abbrev a1 (c : Dev nD) : IVec Cert.Spec.SE 32 := m ((c.tc : Thread nD τ).loc main_arg1)
abbrev a2 (c : Dev nD) : IVec Cert.Spec.SE 32 := m ((c.tc : Thread nD τ).loc main_arg2)
abbrev a3 (c : Dev nD) : Cert.Spec.SDD.Idx → EReal := m ((c.tc : Thread nD τ).loc main_arg3)
abbrev a4 (c : Dev nD) : Cert.Spec.SD.Idx → EReal := m ((c.tc : Thread nD τ).loc main_arg4)

/-- At the first grid computation's entry: X and W as launched, -/
theorem V3_x (c : Dev nD) : Region0.xs (V3 m ρ) c = a0 m c := pre_keeps_arg0 (W0 m ρ c)
theorem V3_w (c : Dev nD) : Region0.ws (V3 m ρ) c = a3 m c := pre_keeps_arg3 (W0 m ρ c)
/-- the coefficient column holding the degree coefficient of the sources, -/
theorem V3_col (c : Dev nD) (n : Fin 100000) : Region0.ds (V3 m ρ) c (ix2 n (0 : Fin 1)) = Cert.Spec.dinv (F := Ideal) (a1 m c) (ix1 n) := by
  show (StableHlo.after hostOps0_2 (W2 m ρ c) (Proc.devRef .tc main_v12) : S100000x1.Idx → EReal) (ix2 n (0 : Fin 1)) = _
  rw [pre_col (W2 m ρ c), VectorAsMatrix.col_apply _ _ n (0 : Fin 1)]
  exact congrFun (pre_dinv (W0 m ρ c)) (ix1 n)
/-- and the bias row holding b. -/
theorem V3_row (c : Dev nD) (q : Fin 128) : (V3 m ρ c main_v13 : S1x128.Idx → EReal) (ix2 (0 : Fin 1) q) = a4 m c (ix1 q) := by
  show (StableHlo.after hostOps0_2 (W2 m ρ c) (Proc.devRef .tc main_v13) : S1x128.Idx → EReal) (ix2 (0 : Fin 1) q) = _
  rw [pre_row (W2 m ρ c), VectorAsMatrix.row_apply _ _ (0 : Fin 1) q]
  exact congrFun (pre_keeps_arg4 (W0 m ρ c)) (ix1 q)

/-- The first grid computation's output: the rows of X W scaled by the coefficient. -/
theorem rows_eq (c : Dev nD) : Region0.rows (V3 m ρ) c = Cert.Spec.scaledRows (a0 m c) (a1 m c) (a3 m c) := by
  funext j
  show Region0.rowsAt (V3 m ρ) c (j 0) (j 1) = _
  unfold Region0.rowsAt
  rw [V3_x, V3_w, V3_col m ρ c (j 0)]
  rfl

/-- After the first grid computation: its output array, the edge lists, the column and the row. -/
theorem W4_rows (c : Dev nD) : (W4 m ρ c (Proc.devRef .tc main_v14) : S100000x128.Idx → EReal) = Cert.Spec.scaledRows (a0 m c) (a1 m c) (a3 m c) :=
  ((W4_arr m ρ c 3).trans (Region0.final (V3 m ρ) c)).trans (rows_eq m ρ c)
theorem W4_src (c : Dev nD) : W4 m ρ c (Proc.devRef .tc main_arg1) = a1 m c :=
  (W4_of_ne m ρ c main_arg1 (by decide)).trans (pre_keeps_arg1 (W0 m ρ c))
theorem W4_dst (c : Dev nD) : W4 m ρ c (Proc.devRef .tc main_arg2) = a2 m c :=
  (W4_of_ne m ρ c main_arg2 (by decide)).trans (pre_keeps_arg2 (W0 m ρ c))
theorem W4_col (c : Dev nD) : W4 m ρ c (Proc.devRef .tc main_v12) = V3 m ρ c main_v12 :=
  (W4_arr m ρ c 2).trans (((dat0 (V3 m ρ) c).arrAt_in 2 rfl _).trans (A_eq0 (V3 m ρ) c 2))
theorem W4_row (c : Dev nD) : W4 m ρ c (Proc.devRef .tc main_v13) = V3 m ρ c main_v13 :=
  W4_of_ne m ρ c main_v13 (by decide)

/-- At the second grid computation's entry. -/
theorem V5_agg (c : Dev nD) : Region1.ag (V5 m ρ) c
    = Cert.Spec.segSum (F := Ideal) (a1 m c) (Cert.Spec.gatherRows (Cert.Spec.scaledRows (a0 m c) (a1 m c) (a3 m c)) (a2 m c)) := by
  show (StableHlo.after hostOps1 (W4 m ρ c) (Proc.devRef .tc main_v24) : S100000x128.Idx → EReal) = _
  rw [mid_agg (W4 m ρ c), W4_src, W4_dst, W4_rows]
theorem V5_col (c : Dev nD) (n : Fin 100000) : Region1.ds (V5 m ρ) c (ix2 n (0 : Fin 1)) = Cert.Spec.dinv (F := Ideal) (a1 m c) (ix1 n) := by
  show (StableHlo.after hostOps1 (W4 m ρ c) (Proc.devRef .tc main_v12) : S100000x1.Idx → EReal) (ix2 n (0 : Fin 1)) = _
  rw [mid_keeps_col (W4 m ρ c), W4_col]
  exact V3_col m ρ c n
theorem V5_row (c : Dev nD) (q : Fin 128) : Region1.bs (V5 m ρ) c (ix2 (0 : Fin 1) q) = a4 m c (ix1 q) := by
  show (StableHlo.after hostOps1 (W4 m ρ c) (Proc.devRef .tc main_v13) : S1x128.Idx → EReal) (ix2 (0 : Fin 1) q) = _
  rw [mid_keeps_row (W4 m ρ c), W4_row]
  exact V3_row m ρ c q

/-- THE RESULT: the result buffer at the last boundary is the specification's kernel-side function of the arguments. -/
theorem result_eq (c : Dev nD) : (W6 m ρ c (Proc.devRef .tc main_v25) : S100000x128.Idx → EReal)
    = Cert.Spec.kerOut (a0 m c) (a1 m c) (a2 m c) (a3 m c) (a4 m c) := by
  refine ((W6_arr m ρ c 3).trans (Region1.final (V5 m ρ) c)).trans ?_
  funext i
  obtain ⟨n, q, rfl⟩ : ∃ (n : Fin 100000) (q : Fin 128), i = ix2 n q := ⟨i 0, i 1, eq_ix2 i⟩
  show Region1.outAt (V5 m ρ) c n q = _
  unfold Region1.outAt
  rw [V5_agg, V5_col m ρ c n, V5_row m ρ c q]
  rfl

end Cert.KernelIdeal.Out

end
-- ==== Proof.RefRun.lean ====
/-
  The reference's run. Its @main is a straight line of host operations (the two functions it calls listed in place
  at their calls), so every weakly fair execution terminates with each buffer at the fold of the operations over the
  launch memory. Read at the result buffer, that fold is the specification's `refOut` of the five argument arrays:
  the same operations composed in the same order.
-/
import proofs.«164258_j69758858822454_1_alg».proof.Proof.Gen.ReferenceIdeal
import Idealize.ShloMosaic.Lib.StableHlo.Run
import proofs.«164258_j69758858822454_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, a called function's in its call's place. -/
abbrev ops : List (HloOp τ sig (Elt F)) :=
  [
    StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v6 (broadcastInDim S100000 ![] bcast_S_S100000 : (⟨S_, .f32⟩ : BufTy).Contents (Elt F) → (⟨S100000, .f32⟩ : BufTy).Contents (Elt F)),
    StableHlo.binary main_v3 main_v6 main_v7 (maximumf : (⟨S100000, .f32⟩ : BufTy).Contents (Elt F) → (⟨S100000, .f32⟩ : BufTy).Contents (Elt F) → (⟨S100000, .f32⟩ : BufTy).Contents (Elt F)),
    StableHlo.unary main_v7 main_v8 (Host.sqrt : (⟨S100000, .f32⟩ : BufTy).Contents (Elt F) → (⟨S100000, .f32⟩ : BufTy).Contents (Elt F)),
    StableHlo.nullary main_cst_3 (constant S_ .f32 0x3F800000#32),
    StableHlo.unary main_cst_3 main_v9 (broadcastInDim S100000 ![] bcast_S_S100000 : (⟨S_, .f32⟩ : BufTy).Contents (Elt F) → (⟨S100000, .f32⟩ : BufTy).Contents (Elt F)),
    StableHlo.binary main_v9 main_v8 main_v10 (Host.divf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x00000000#32),
    StableHlo.TRef.unary (.of main_cst_4) main_call0.v0 id,
    StableHlo.TRef.unary main_call0.v0 main_call0.v1 (broadcastInDim S100000 ![] bcast_S_S100000),
    StableHlo.TRef.ternary (.of main_v5) (.of main_v10) main_call0.v1 main_call0.v2 select,
    StableHlo.binary main_arg0 main_arg3 main_v12 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_arg1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v15 (broadcastInDim S1600000 ![] bcast_S_S1600000 : (⟨S_, .i32⟩ : BufTy).Contents (Elt F) → (⟨S1600000, .i32⟩ : BufTy).Contents (Elt F)),
    StableHlo.binary main_arg1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_arg1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_v11 main_v18 main_v19 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_6 (constantI S_ 32 0#32),
    StableHlo.unary main_c_6 main_v20 (broadcastInDim S1600000 ![] bcast_S_S1600000 : (⟨S_, .i32⟩ : BufTy).Contents (Elt F) → (⟨S1600000, .i32⟩ : BufTy).Contents (Elt F)),
    StableHlo.binary main_arg2 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v22 (broadcastInDim S1600000 ![] bcast_S_S1600000 : (⟨S_, .i32⟩ : BufTy).Contents (Elt F) → (⟨S1600000, .i32⟩ : BufTy).Contents (Elt F)),
    StableHlo.binary main_arg2 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_arg2 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v11 main_v25 main_v26 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v19 main_v26 main_v27 (mulf : (⟨S1600000, .f32⟩ : BufTy).Contents (Elt F) → (⟨S1600000, .f32⟩ : BufTy).Contents (Elt F) → (⟨S1600000, .f32⟩ : BufTy).Contents (Elt F)),
    StableHlo.unary main_v27 main_v28 (broadcastInDim S1600000x1 ![0] bcast_S1600000_S1600000x1_0 : (⟨S1600000, .f32⟩ : BufTy).Contents (Elt F) → (⟨S1600000x1, .f32⟩ : BufTy).Contents (Elt F)),
    StableHlo.nullary main_c_8 (constantI S_ 32 0#32),
    StableHlo.unary main_c_8 main_v29 (broadcastInDim S1600000 ![] bcast_S_S1600000 : (⟨S_, .i32⟩ : BufTy).Contents (Elt F) → (⟨S1600000, .i32⟩ : BufTy).Contents (Elt F)),
    StableHlo.binary main_arg2 main_v29 main_v30 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v31 (broadcastInDim S1600000 ![] bcast_S_S1600000 : (⟨S_, .i32⟩ : BufTy).Contents (Elt F) → (⟨S1600000, .i32⟩ : BufTy).Contents (Elt F)),
    StableHlo.binary main_arg2 main_v31 main_v32 (addi : (⟨S1600000, .i32⟩ : BufTy).Contents (Elt F) → (⟨S1600000, .i32⟩ : BufTy).Contents (Elt F) → (⟨S1600000, .i32⟩ : BufTy).Contents (Elt F)),
    StableHlo.ternary main_v30 main_v32 main_arg2 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v33 main_v34 (broadcastInDim S1600000x1 ![0] bcast_S1600000_S1600000x1_0 : (⟨S1600000, .i32⟩ : BufTy).Contents (Elt F) → (⟨S1600000x1, .i32⟩ : BufTy).Contents (Elt F)),
    StableHlo.binary main_v12 main_v34 main_v35 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v28 main_v36 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v35 main_v36 main_v37 (mulf : (⟨S1600000x128, .f32⟩ : BufTy).Contents (Elt F) → (⟨S1600000x128, .f32⟩ : BufTy).Contents (Elt F) → (⟨S1600000x128, .f32⟩ : BufTy).Contents (Elt F)),
    StableHlo.nullary main_cst_10 (constant S_ .f32 0x00000000#32),
    StableHlo.unary main_cst_10 main_v38 (broadcastInDim S100000x128 ![] bcast_S_S100000x128 : (⟨S_, .f32⟩ : BufTy).Contents (Elt F) → (⟨S100000x128, .f32⟩ : BufTy).Contents (Elt F)),
    StableHlo.unary main_arg1 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg4 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v43) main_call1.v0 main_call1.v1 maximumf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

set_option maxRecDepth 8192 in
set_option maxHeartbeats 24800000 in
/-- Every weakly fair execution of the reference terminates with the result at `refOut` of the argument arrays as
    launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
        = Cert.Spec.refOut (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v44).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefValue

end
-- ==== Proof.SpecLaws.lean ====
/-
  The specification's stages read at an index, and the law that joins the two results: an edge summed into row i has
  source i, so its source coefficient is the one number dinv[i], a nonnegative real, and a nonnegative real factor passes
  through a finite sum of extended reals.
-/
import proofs.«164258_j69758858822454_1_alg».proof.Proof.Spec

noncomputable section

namespace Cert.Spec

open Idealize.ShloMosaic Idealize.ShloMosaic.ValueIdx Idealize.ShloMosaic.SegmentSum

/-! ## The stages read at an index

The out-degree and the coefficient are sums with one term per edge. They enter the argument only through what
characterises them — the degree is a natural number (`deg_nat`), the coefficient a nonnegative real (`dinv_real`) — and
every other stage is read with them held as opaque quantities. -/

theorem col_apply (x : IVec SE 32) (e : Fin 1600000) (q : Fin 1) : col x (ix2 e q) = x (ix1 e) :=
  HostBroadcast.vec_col_apply bEE1 x (ix2 e q)

/-- A nonnegative index is not moved by the wrap. -/
theorem wrap_of_nonneg (x : IVec SE 32) (e : Fin 1600000) (h : 0 ≤ (x (ix1 e)).toInt) : wrap x (ix1 e) = x (ix1 e) := by
  have hlt : (x (ix1 e)).slt 0#32 = false := by
    simp only [BitVec.slt, BitVec.toInt_zero, decide_eq_false_iff_not, not_lt]
    exact h
  show Scalar.select (IntOp.cmpi .slt (x (ix1 e)) 0#32) (IntOp.addi (x (ix1 e)) 100000#32) (x (ix1 e)) = x (ix1 e)
  have hc : IntOp.cmpi .slt (x (ix1 e)) 0#32 = 0#1 := by
    show BitVec.ofBool ((x (ix1 e)).slt 0#32) = 0#1
    rw [hlt]; rfl
  rw [hc, select_zero]

/-- The zero splat is zero everywhere. -/
theorem zeros_apply {t : Shape} (dims : Fin S0.rank → Fin t.rank) (h : S0.BroadcastsInDim t dims) (j : t.Idx) :
    broadcastInDim t dims h (constant (F := Ideal) S0 .f32 0x00000000#32) j = 0 := by
  show Ideal.ofBits .f32 0x00000000#32 = 0
  exact Ideal.ofBits_zero_f32

/-- The zero splat over the nodes. -/
theorem zerosN : (broadcastInDim SN ![] b0N (constant (F := Ideal) S0 .f32 0x00000000#32)) = fun _ => (0 : EReal) :=
  funext fun j => zeros_apply _ b0N j

/-- The zero splat over the node rows. -/
theorem zerosND : (broadcastInDim SND ![] b0ND (constant (F := Ideal) S0 .f32 0x00000000#32)) = fun _ => (0 : EReal) :=
  funext fun j => zeros_apply _ b0ND j

/-- The splat of ones over the edges. -/
theorem onesE : (broadcastInDim SE ![] b0E (constant (F := Ideal) S0 .f32 0x3F800000#32)) = fun _ => (1 : EReal) :=
  funext fun j => by
    show Ideal.ofBits .f32 0x3F800000#32 = 1
    rw [Cert.DegreeCoeff.ofBits_one]; rfl

/-- The out-degree is the library's scatter sum of ones into zeros. -/
theorem deg_eq (src : IVec SE 32) :
    deg (F := Ideal) src = Ideal.hostScatterAdd dDeg (fun _ => (0 : EReal)) (col src) (fun _ => (1 : EReal)) :=
  congrArg₂ (fun a b => Ideal.hostScatterAdd dDeg a (col src) b) zerosN onesE

/-- The out-degree is a natural number. -/
theorem deg_nat (src : IVec SE 32) (n : Fin 100000) : ∃ k : ℕ, deg (F := Ideal) src (ix1 n) = ((k : ℝ) : EReal) := by
  rw [deg_eq]
  exact Cert.DegreeCoeff.scatter_ones_nat dDeg (col src) (ix1 n)

/-- The coefficient's operations at a node, over ANY per-node quantity `g` in the degree's place. -/
theorem coeff_form (g : FVec Ideal SN .f32) (n : Fin 100000) :
    (select (cmpf .ogt g (broadcastInDim SN ![] b0N (constant (F := Ideal) S0 .f32 0x00000000#32)))
      (Host.divf (broadcastInDim SN ![] b0N (constant (F := Ideal) S0 .f32 0x3F800000#32))
        (Host.sqrt (maximumf g (broadcastInDim SN ![] b0N (constant (F := Ideal) S0 .f32 0x3F800000#32)))))
      (broadcastInDim SN ![] b0N (constant (F := Ideal) S0 .f32 0x00000000#32))) (ix1 n)
      = Scalar.select (Ideal.cmp .ogt (g (ix1 n)) (Ideal.ofBits .f32 0x00000000#32))
          (Ideal.div (Ideal.ofBits .f32 0x3F800000#32) (Ideal.sqrt (max (g (ix1 n)) (Ideal.ofBits .f32 0x3F800000#32))))
          (Ideal.ofBits .f32 0x00000000#32) := rfl

-- from here on the out-degree is known only as a natural number (`deg_nat`)
attribute [local irreducible] deg

/-- The coefficient is a nonnegative real. -/
theorem dinv_real (src : IVec SE 32) (n : Fin 100000) : ∃ r : ℝ, 0 ≤ r ∧ dinv (F := Ideal) src (ix1 n) = (r : EReal) := by
  obtain ⟨k, hk⟩ := deg_nat src n
  have hf := coeff_form (deg (F := Ideal) src) n
  rw [Cert.DegreeCoeff.ofBits_one, Ideal.ofBits_zero_f32, hk] at hf
  obtain ⟨r, hr, he⟩ := Cert.DegreeCoeff.coeff_real k (Ideal.cmp .ogt ((k : ℝ) : EReal) 0)
  exact ⟨r, hr, hf.trans he⟩

-- and the coefficient only as a nonnegative real (`dinv_real`)
attribute [local irreducible] dinv

theorem gatherRows_apply {F : FTy → Type} [FloatOps F] (y : FVec F SND .f32) (dst : IVec SE 32) (e : Fin 1600000) (c : Fin 128) :
    gatherRows y dst (ix2 e c) = y (ix2 (clampRow 100000 hN (col (wrap dst)) e) c) :=
  rowGather_apply hN wfG y (col (wrap dst)) (ix2 e c)

/-- The segment sum is the library's scatter sum into zeros. -/
theorem segSum_eq (src : IVec SE 32) (u : FVec Ideal SED .f32) :
    segSum (F := Ideal) src u = Ideal.hostScatterAdd dS (fun _ => (0 : EReal)) (col src) u :=
  congrArg (fun a => Ideal.hostScatterAdd dS a (col src) u) zerosND

/-- X W at (r, c): the sum over k of X(r, k) · W(k, c). -/
theorem xw_apply (x0 : FVec Ideal SND .f32) (x3 : FVec Ideal SDD .f32) (r : Fin 100000) (c : Fin 128) :
    Host.dotGeneral dDot none x0 x3 (ix2 r c) = ∑ k : Fin 128, x0 (ix2 r k) * x3 (ix2 k c) :=
  MatmulRows.dotGeneral_apply (M := 100000) (K := 128) (N := 128) dDot none .single rfl rfl rfl rfl
    (fun i q => by
      unfold DotDims.lhsIdx
      rw [dif_neg (show ¬(0 : Fin SND.rank) ∈ dDot.lhsBatch by decide), dif_pos (show (0 : Fin SND.rank) ∈ dDot.lhsNonContracting by decide)]
      rfl)
    (fun i q => by
      unfold DotDims.rhsIdx
      rw [dif_neg (show ¬(1 : Fin SDD.rank) ∈ dDot.rhsBatch by decide), dif_pos (show (1 : Fin SDD.rank) ∈ dDot.rhsNonContracting by decide)]
      rfl)
    x0 x3 (ix2 r c)

/-- A row of the scaled rows. -/
theorem scaledRows_apply (x0 : FVec Ideal SND .f32) (x1 : IVec SE 32) (x3 : FVec Ideal SDD .f32) (r : Fin 100000) (c : Fin 128) :
    scaledRows x0 x1 x3 (ix2 r c) = (∑ k : Fin 128, x0 (ix2 r k) * x3 (ix2 k c)) * dinv (F := Ideal) x1 (ix1 r) := rfl

/-! ## The two results are one function -/

/-- The edge coefficient at edge e: the source's times the destination's. -/
theorem edge_coeff (d : FVec Ideal SN .f32) (x1 x2 : IVec SE 32) (e : Fin 1600000) (c : Fin 128) :
    broadcastInDim SED ![0, 1] bE1ED (broadcastInDim SE1 ![0] bEE1
        (mulf (Host.gather dV d (col (wrap x1))) (Host.gather dV d (col (wrap x2))))) (ix2 e c)
      = d (ix1 (clampRow 100000 hN (col (wrap x1)) e)) * d (ix1 (clampRow 100000 hN (col (wrap x2)) e)) := by
  rw [HostBroadcast.column_apply bEE1 bE1ED _ (ix2 e c), mulf_apply,
    vecGather_apply hN wfV d (col (wrap x1)) (ix1 e), vecGather_apply hN wfV d (col (wrap x2)) (ix1 e)]

/-- The reference's edge term is the kernel's gathered scaled row times the source's coefficient. -/
theorem edge_term (x0 : FVec Ideal SND .f32) (x1 x2 : IVec SE 32) (x3 : FVec Ideal SDD .f32) (j : SED.Idx) :
    mulf (gatherRows (Host.dotGeneral dDot none x0 x3) x2)
        (broadcastInDim SED ![0, 1] bE1ED (broadcastInDim SE1 ![0] bEE1
          (mulf (Host.gather dV (dinv (F := Ideal) x1) (col (wrap x1))) (Host.gather dV (dinv (F := Ideal) x1) (col (wrap x2)))))) j
      = gatherRows (scaledRows x0 x1 x3) x2 j * dinv (F := Ideal) x1 (ix1 (clampRow 100000 hN (col (wrap x1)) (j 0))) := by
  obtain ⟨e, c, rfl⟩ : ∃ (e : Fin 1600000) (c : Fin 128), j = ix2 e c := ⟨j 0, j 1, eq_ix2 j⟩
  rw [mulf_apply, edge_coeff (dinv (F := Ideal) x1) x1 x2 e c, gatherRows_apply, gatherRows_apply, xw_apply, scaledRows_apply]
  show _ * (_ * _) = _ * _ * dinv (F := Ideal) x1 (ix1 (clampRow 100000 hN (col (wrap x1)) e))
  rw [mul_comm (dinv (F := Ideal) x1 (ix1 (clampRow 100000 hN (col (wrap x1)) e))), mul_assoc]

/-- An edge summed into row i has source i: its wrapped, clamped source row is i. -/
theorem source_row (x1 : IVec SE 32) (j : SED.Idx) (i : SND.Idx) (h : dS.resultIdx? j (col x1) = some i) :
    clampRow 100000 hN (col (wrap x1)) (j 0) = i 0 := by
  have hl := rowScatter_lands wfS (col x1) j i h
  have hc : col x1 (ix2 (j 0) 0) = x1 (ix1 (j 0)) := col_apply x1 (j 0) 0
  rw [hc] at hl
  refine clampRow_of_lands hN wfS (col x1) (col (wrap x1)) j i h ?_
  rw [hc, col_apply (wrap x1) (j 0) 0, wrap_of_nonneg x1 (j 0) (by rw [hl]; exact Int.natCast_nonneg _)]

/-- The law, with everything but the scatter held as variables: a factor that is one nonnegative real on the updates
    landing at `i` comes out of the sum at `i`. -/
theorem clamp_law (idx : IVec SE1 32) (U B : SED.Idx → EReal) (i : SND.Idx) (r : ℝ) (hr : 0 ≤ r) (b : EReal)
    (hB : ∀ j, dS.resultIdx? j idx = some i → B j = (r : EReal)) :
    max (Ideal.hostScatterAdd dS (fun _ => (0 : EReal)) idx U i * (r : EReal) + b) 0
      = max (Ideal.hostScatterAdd dS (fun _ => (0 : EReal)) idx (fun j => U j * B j) i + b) 0 := by
  rw [hostScatterAdd_zero_mul_fibre dS idx U B i r hr hB]

/-- The kernel's entry, with the segment sum as the library's scatter sum. -/
theorem kerOut_apply (x0 : FVec Ideal SND .f32) (x1 x2 : IVec SE 32) (x3 : FVec Ideal SDD .f32) (x4 : FVec Ideal SD .f32) (i : SND.Idx) :
    kerOut x0 x1 x2 x3 x4 i
      = max (Ideal.hostScatterAdd dS (fun _ => (0 : EReal)) (col x1) (gatherRows (scaledRows x0 x1 x3) x2) i
          * dinv (F := Ideal) x1 (ix1 (i 0)) + x4 (ix1 (i 1))) 0 := by
  show max (segSum (F := Ideal) x1 (gatherRows (scaledRows x0 x1 x3) x2) i * dinv (F := Ideal) x1 (ix1 (i 0)) + x4 (ix1 (i 1))) 0 = _
  rw [segSum_eq]

/-- The reference's entry, with the segment sum as the library's scatter sum of the edge terms. -/
theorem refOut_apply (x0 : FVec Ideal SND .f32) (x1 x2 : IVec SE 32) (x3 : FVec Ideal SDD .f32) (x4 : FVec Ideal SD .f32) (i : SND.Idx) :
    refOut (F := Ideal) x0 x1 x2 x3 x4 i
      = max (Ideal.hostScatterAdd dS (fun _ => (0 : EReal)) (col x1)
          (fun j => gatherRows (scaledRows x0 x1 x3) x2 j * dinv (F := Ideal) x1 (ix1 (clampRow 100000 hN (col (wrap x1)) (j 0)))) i
          + x4 (ix1 (i 1))) 0 := by
  unfold refOut
  rw [maximumf_apply, addf_apply, zeros_apply, HostBroadcast.bias_apply bD1D b1DND x4 i, segSum_eq,
    funext fun j => edge_term x0 x1 x2 x3 j]

theorem kerOut_eq_refOut (x0 : FVec Ideal SND .f32) (x1 x2 : IVec SE 32) (x3 : FVec Ideal SDD .f32) (x4 : FVec Ideal SD .f32) :
    kerOut x0 x1 x2 x3 x4 = refOut (F := Ideal) x0 x1 x2 x3 x4 := by
  funext i
  obtain ⟨r, hr, hd⟩ := dinv_real x1 (i 0)
  rw [kerOut_apply, refOut_apply, hd]
  exact clamp_law (col x1) (gatherRows (scaledRows x0 x1 x3) x2)
    (fun j => dinv (F := Ideal) x1 (ix1 (clampRow 100000 hN (col (wrap x1)) (j 0)))) i r hr (x4 (ix1 (i 1)))
    (fun j hj => by rw [source_row x1 j i hj]; exact hd)

end Cert.Spec

end
-- ==== Proof.lean ====
/-
  One graph-convolution layer, relu(D^(-1/2) A D^(-1/2) X W + b), with A given as a list of unit-weight edges (src, dst)
  and D the out-degrees; the coefficient is dinv = deg > 0 ? 1 / sqrt (max deg 1) : 0.

  The reference forms X W, gathers its rows at dst, scales edge e's row by dinv[src e] · dinv[dst e], sums the rows by
  source, adds b and clamps at zero. The kernel scales row j of X W by dinv[j] in a first grid computation (a matrix
  product with bf16 operands, which on the extended reals is the exact product), lets the host gather those rows at dst
  and sum them by source, and in a second grid computation scales row i of the sum by dinv[i], adds b and clamps.

  On the extended reals the two agree entry by entry: an edge summed into row i has source i, so its factor
  dinv[src e] is the one number dinv[i]; that number is a nonnegative REAL (the degree is a count), and a nonnegative
  real factor passes through a finite sum of extended reals, infinite terms or not. So the equality needs no finiteness
  of X, W or b, and the precondition is not opened.

  The parts: Spec (the stages both programs share and the two results as functions of the arguments), SpecLaws (the
  stages read at an index and the law), RefRun (the reference's run ends at `refOut`), KernelRun (the kernel's run ends
  with every buffer at the last boundary's contents), Region0 / Region1 (what each grid computation leaves in its
  output array), KernelValue (the boundaries composed: the result buffer holds `kerOut`).
-/
import proofs.«164258_j69758858822454_1_alg».proof.Defs
import proofs.«164258_j69758858822454_1_alg».proof.Proof.Gen.Kernel
import proofs.«164258_j69758858822454_1_alg».proof.Proof.Gen.Kernel.Frame
import proofs.«164258_j69758858822454_1_alg».proof.Proof.Gen.KernelIdeal
import proofs.«164258_j69758858822454_1_alg».proof.Proof.Gen.KernelIdeal.Frame
import proofs.«164258_j69758858822454_1_alg».proof.Proof.Gen.ReferenceIdeal
import proofs.«164258_j69758858822454_1_alg».proof.Proof.Gen.Pre_finite_inputs
import proofs.«164258_j69758858822454_1_alg».proof.Proof.KernelValue
import proofs.«164258_j69758858822454_1_alg».proof.Proof.RefRun
import proofs.«164258_j69758858822454_1_alg».proof.Proof.SpecLaws
import Idealize.ShloMosaic.Adequacy
import Idealize.ShloMosaic.Init

noncomputable section

namespace Cert.Proof

open Idealize.ShloMosaic Idealize.ShloMosaic.TcCoe Idealize.SL.Sem

/-- Each program runs to the end, faultless, and leaves its arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- From memories agreeing on the arguments both idealized programs end with the result at `kerOut` of the arguments:
    the kernel by its boundaries composed, the reference because its `refOut` is the same function. -/
theorem algebraic : Cert.algebraic_KernelIdeal_ReferenceIdeal := by
  intro m ρ m' ρ' _ hagree
  refine ⟨fun c => Cert.Spec.kerOut (Cert.KernelIdeal.Out.a0 m c) (Cert.KernelIdeal.Out.a1 m c) (Cert.KernelIdeal.Out.a2 m c)
    (Cert.KernelIdeal.Out.a3 m c) (Cert.KernelIdeal.Out.a4 m c), ?_, ?_⟩
  · exact (θ_run Cert.KernelIdeal.defs _ _).mono
      (fun r h c => ⟨(h c).1.trans (Cert.KernelIdeal.Out.result_eq m ρ c), (h c).2⟩) (Cert.KernelIdeal.Out.run_out m ρ)
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2]
    exact (Cert.Spec.kerOut_eq_refOut _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
